-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x384 : Shape := ⟨3, ![256, 256, 384]⟩
abbrev S64x384 : Shape := ⟨2, ![64, 384]⟩
abbrev S_ : Shape := ⟨0, ![]⟩

class Facts : Prop where
  bcast_S_S256x256x384 : S_.BroadcastsInDim S256x256x384 (![] : Fin 0 → Fin S256x256x384.rank)
  reducesTo_S256x256x384_S_d0_1_2 : S256x256x384.ReducesTo [0, 1, 2] S_
  h_S_ : 0 < S_.numel
  bcast_S_S64x384 : S_.BroadcastsInDim S64x384 (![] : Fin 0 → Fin S64x384.rank)
  reducesTo_S64x384_S_d0_1 : S64x384.ReducesTo [0, 1] S_

variable [Facts]

def fn_part1 {F : FTy → Type} [FloatOps F] (main_v13 : IVec S_ 1) (main_v16 : IVec S64x384 1) : IVec S_ 1 :=
  let main_c_5 : IVec S_ 1 := constantI S_ 1 1#1
  let main_v17 : IVec S_ 1 := (fun x v => Host.reduce IntOp.andi x v reducesTo_S64x384_S_d0_1 h_S_) main_v16 main_c_5
  let main_v18 : IVec S_ 1 := andi main_v13 main_v17
  main_v18

def fn {F : FTy → Type} [FloatOps F] (main_arg0 : FVec F S256x256x384 .f32) (main_arg1 : FVec F S64x384 .f32) (main_arg2 : FVec F S64x384 .f32) (main_arg3 : FVec F S64x384 .f32) : IVec S_ 1 :=
  let main_v0 : FVec F S256x256x384 .f32 := Host.absf main_arg0
  let main_cst : FVec F S_ .f32 := constant S_ .f32 0x7F800000#32
  let main_v1 : FVec F S256x256x384 .f32 := broadcastInDim S256x256x384 ![] bcast_S_S256x256x384 main_cst
  let main_v2 : IVec S256x256x384 1 := cmpf .olt main_v0 main_v1
  let main_c : IVec S_ 1 := constantI S_ 1 1#1
  let main_v3 : IVec S_ 1 := (fun x v => Host.reduce IntOp.andi x v reducesTo_S256x256x384_S_d0_1_2 h_S_) main_v2 main_c
  let main_v4 : FVec F S64x384 .f32 := Host.absf main_arg1
  let main_cst_0 : FVec F S_ .f32 := constant S_ .f32 0x7F800000#32
  let main_v5 : FVec F S64x384 .f32 := broadcastInDim S64x384 ![] bcast_S_S64x384 main_cst_0
  let main_v6 : IVec S64x384 1 := cmpf .olt main_v4 main_v5
  let main_c_1 : IVec S_ 1 := constantI S_ 1 1#1
  let main_v7 : IVec S_ 1 := (fun x v => Host.reduce IntOp.andi x v reducesTo_S64x384_S_d0_1 h_S_) main_v6 main_c_1
  let main_v8 : IVec S_ 1 := andi main_v3 main_v7
  let main_v9 : FVec F S64x384 .f32 := Host.absf main_arg2
  let main_cst_2 : FVec F S_ .f32 := constant S_ .f32 0x7F800000#32
  let main_v10 : FVec F S64x384 .f32 := broadcastInDim S64x384 ![] bcast_S_S64x384 main_cst_2
  let main_v11 : IVec S64x384 1 := cmpf .olt main_v9 main_v10
  let main_c_3 : IVec S_ 1 := constantI S_ 1 1#1
  let main_v12 : IVec S_ 1 := (fun x v => Host.reduce IntOp.andi x v reducesTo_S64x384_S_d0_1 h_S_) main_v11 main_c_3
  let main_v13 : IVec S_ 1 := andi main_v8 main_v12
  let main_v14 : FVec F S64x384 .f32 := Host.absf main_arg3
  let main_cst_4 : FVec F S_ .f32 := constant S_ .f32 0x7F800000#32
  let main_v15 : FVec F S64x384 .f32 := broadcastInDim S64x384 ![] bcast_S_S64x384 main_cst_4
  let main_v16 : IVec S64x384 1 := cmpf .olt main_v14 main_v15
  fn_part1 (F := F) main_v13 main_v16
-- ==== Kernel.lean ====
abbrev S256x256x384 : Shape := ⟨3, ![256, 256, 384]⟩
abbrev S64x384 : Shape := ⟨2, ![64, 384]⟩
abbrev S256x256x64 : Shape := ⟨3, ![256, 256, 64]⟩
abbrev S16x256x384 : Shape := ⟨3, ![16, 256, 384]⟩
abbrev S16x256x64 : Shape := ⟨3, ![16, 256, 64]⟩
abbrev S4096x384 : Shape := ⟨2, ![4096, 384]⟩
abbrev S4096x64 : Shape := ⟨2, ![4096, 64]⟩
abbrev S256x256 : Shape := ⟨2, ![256, 256]⟩
abbrev S1x256x64 : Shape := ⟨3, ![1, 256, 64]⟩
abbrev S256x64 : Shape := ⟨2, ![256, 64]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S256x256x384, .f32⟩
  | .hbm, ⟨1, _⟩ => ⟨S64x384, .f32⟩
  | .hbm, ⟨2, _⟩ => ⟨S64x384, .f32⟩
  | .hbm, ⟨3, _⟩ => ⟨S64x384, .f32⟩
  | .hbm, ⟨4, _⟩ => ⟨S256x256x64, .f32⟩
  | .local _ .vmem, ⟨0, _⟩ => ⟨S16x256x384, .f32⟩
  | .local _ .vmem, ⟨1, _⟩ => ⟨S16x256x384, .f32⟩
  | .local _ .vmem, ⟨2, _⟩ => ⟨S64x384, .f32⟩
  | .local _ .vmem, ⟨3, _⟩ => ⟨S64x384, .f32⟩
  | .local _ .vmem, ⟨4, _⟩ => ⟨S64x384, .f32⟩
  | .local _ .vmem, ⟨5, _⟩ => ⟨S16x256x64, .f32⟩
  | .local _ .vmem, ⟨6, _⟩ => ⟨S16x256x64, .f32⟩
  | .local _ .vmem, ⟨7, _⟩ => ⟨S16x256x64, .bf16⟩
  | .local _ .vmem, ⟨8, _⟩ => ⟨S16x256x64, .bf16⟩
  | .local _ .vmem, ⟨9, _⟩ => ⟨S16x256x64, .bf16⟩
  | _, _ => ⟨S256x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v30 : BitVec 32 := Scalar.addi c0_i32 c16_i32
  let c1_i32 : BitVec 32 := 1#32
  ⟨c0_i32, v30, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v31 : Index := Scalar.indexCast arg9
  let c0_20 : Index := 0#32
  let c0_21 : Index := 0#32
  ![v31.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S16x256x384_S16x256x384_0_0_0 : ∀ a, (![0, 0, 0] : Fin 3 → Nat) a + S16x256x384.size a ≤ S16x256x384.size a
  h_S16x256x384 : 0 < S16x256x384.numel
  bitsLt_bf16_f32 : FTy.bits .bf16 < FTy.bits .f32
  inb_S64x384_S64x384_0_0 : ∀ a, (![0, 0] : Fin 2 → Nat) a + S64x384.size a ≤ S64x384.size a
  h_S64x384 : 0 < S64x384.numel
  shapeCasts_S16x256x384_S4096x384 : S16x256x384.ShapeCasts S4096x384
  shapeCasts_S4096x64_S16x256x64 : S4096x64.ShapeCasts S16x256x64
  inb_S16x256x64_S16x256x64_0_0_0 : ∀ a, (![0, 0, 0] : Fin 3 → Nat) a + S16x256x64.size a ≤ S16x256x64.size a
  h_S16x256x64 : 0 < S16x256x64.numel
  shapeCasts_S16x256x64_S16x256x64 : S16x256x64.ShapeCasts S16x256x64
  packedbf16_S16x256x64_S16x256x64_0_0_0 : (Rect.unit (s := S16x256x64) ![0, 0, 0] S16x256x64.size inb_S16x256x64_S16x256x64_0_0_0).PackedRows (EltTy.packing .bf16)
  iota_S256x256_d0_w32 : S256x256.Iotas .tc 32 [0]
  iota_S256x256_d1_w32 : S256x256.Iotas .tc 32 [1]
  h_S1x256x64 : 0 < S1x256x64.numel
  shapeCasts_S1x256x64_S256x64 : S1x256x64.ShapeCasts S256x64
  reduces_S256x256_S256 : S256x256.Reduces [1] S256
  shapeCasts_S256_S256x1 : S256.ShapeCasts S256x1
  broadcasts_S256x1_S256x256 : S256x1.Broadcasts S256x256
  shapeCasts_S256x64_S1x256x64 : S256x64.ShapeCasts S1x256x64
  dot_S4096x384_S64x384_S4096x64_1_1_0_0_n_n_wf : DotDims.WF S4096x384 S64x384 S4096x64 [1] [1] [0] [0] [] []
  dot_S256x64_S256x64_S256x256_1_1_0_0_n_n_wf : DotDims.WF S256x64 S256x64 S256x256 [1] [1] [0] [0] [] []
  dot_S256x256_S256x64_S256x64_1_0_0_1_n_n_wf : DotDims.WF S256x256 S256x64 S256x64 [1] [0] [0] [1] [] []
  hrank0 : 0 < grid0.rank
  k0_t1_ok : k0_t1_loop.OK
  k0_off1_inb : ∀ k0_t1 : Fin k0_t1_loop.trips, ∀ a, (k0_off1 k0_t1) a + S1x256x64.size a ≤ S16x256x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x384.size a ≤ S256x256x384.size a
  hwx0_0 : ∀ i : grid0.Coords, EltTy.bits .f32 = 32 ∨ (Rect.block (s := S256x256x384) S16x256x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x384.size a ≤ S64x384.size a
  hwx0_1 : ∀ i : grid0.Coords, EltTy.bits .f32 = 32 ∨ (Rect.block (s := S64x384) S64x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x384.size a ≤ S64x384.size a
  hwx0_2 : ∀ i : grid0.Coords, EltTy.bits .f32 = 32 ∨ (Rect.block (s := S64x384) S64x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x384.size a ≤ S64x384.size a
  hwx0_3 : ∀ i : grid0.Coords, EltTy.bits .f32 = 32 ∨ (Rect.block (s := S64x384) S64x384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256x64.size a ≤ S256x256x64.size a
  hwx0_4 : ∀ i : grid0.Coords, EltTy.bits .f32 = 32 ∨ (Rect.block (s := S256x256x64) S16x256x64.size (cc0_transform_4 i) (hinb0_4 i)).WholeWords (EltTy.packing .f32)

variable [Facts₀]

def dot_S4096x384_S64x384_S4096x64_1_1_0_0_n_n : DotDims S4096x384 S64x384 S4096x64 where
  lhsContracting := [1]
  rhsContracting := [1]
  lhsNonContracting := [0]
  rhsNonContracting := [0]
  lhsBatch := []
  rhsBatch := []
  wf := dot_S4096x384_S64x384_S4096x64_1_1_0_0_n_n_wf
def dot_S256x64_S256x64_S256x256_1_1_0_0_n_n : DotDims S256x64 S256x64 S256x256 where
  lhsContracting := [1]
  rhsContracting := [1]
  lhsNonContracting := [0]
  rhsNonContracting := [0]
  lhsBatch := []
  rhsBatch := []
  wf := dot_S256x64_S256x64_S256x256_1_1_0_0_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf

abbrev win0_0 : Pipeline.Window sig grid0 :=
  Pipeline.Window.ofSpec (Memref.whole main_arg0) S16x256x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S16x256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x256x384 : Shape := ⟨3, ![256, 256, 384]⟩
abbrev S64x384 : Shape := ⟨2, ![64, 384]⟩
abbrev S256x256x64 : Shape := ⟨3, ![256, 256, 64]⟩
abbrev S256x256x256 : Shape := ⟨3, ![256, 256, 256]⟩
abbrev S_ : Shape := ⟨0, ![]⟩
abbrev S256x256 : Shape := ⟨2, ![256, 256]⟩
abbrev S256x256x1 : Shape := ⟨3, ![256, 256, 1]⟩

abbrev nBuf : Space → Nat
  | .hbm => 42
  | .vmem => 0
  | .smem => 0
  | _ => 0

abbrev bufTy : (tb : Table) → Fin (tcTables nBuf tb) → BufTy
  | .hbm, ⟨0, _⟩ => ⟨S256x256x384, .f32⟩
  | .hbm, ⟨1, _⟩ => ⟨S64x384, .f32⟩
  | .hbm, ⟨2, _⟩ => ⟨S64x384, .f32⟩
  | .hbm, ⟨3, _⟩ => ⟨S64x384, .f32⟩
  | .hbm, ⟨4, _⟩ => ⟨S256x256x64, .f32⟩
  | .hbm, ⟨5, _⟩ => ⟨S256x256x64, .f32⟩
  | .hbm, ⟨6, _⟩ => ⟨S256x256x64, .f32⟩
  | .hbm, ⟨7, _⟩ => ⟨S256x256x256, .f32⟩
  | .hbm, ⟨8, _⟩ => ⟨S_, .f32⟩
  | .hbm, ⟨9, _⟩ => ⟨S256x256x256, .f32⟩
  | .hbm, ⟨10, _⟩ => ⟨S256x256x256, .f32⟩
  | .hbm, ⟨11, _⟩ => ⟨S_, .i1⟩
  | .hbm, ⟨12, _⟩ => ⟨S256x256, .i1⟩
  | .hbm, ⟨13, _⟩ => ⟨S256x256, .i32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S256x256, .i32⟩
  | .hbm, ⟨18, _⟩ => ⟨S256x256, .i1⟩
  | .hbm, ⟨19, _⟩ => ⟨S_, .i1⟩
  | .hbm, ⟨20, _⟩ => ⟨S256x256, .i1⟩
  | .hbm, ⟨21, _⟩ => ⟨S256x256, .i1⟩
  | .hbm, ⟨22, _⟩ => ⟨S_, .f32⟩
  | .hbm, ⟨23, _⟩ => ⟨S_, .f32⟩
  | .hbm, ⟨24, _⟩ => ⟨S256x256x256, .i1⟩
  | .hbm, ⟨25, _⟩ => ⟨S256x256x256, .f32⟩
  | .hbm, ⟨26, _⟩ => ⟨S256x256x256, .f32⟩
  | .hbm, ⟨27, _⟩ => ⟨S_, .f32⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256x1, .f32⟩
  | .hbm, ⟨33, _⟩ => ⟨S256x256x256, .f32⟩
  | .hbm, ⟨34, _⟩ => ⟨S256x256x256, .f32⟩
  | .hbm, ⟨35, _⟩ => ⟨S256x256x256, .f32⟩
  | .hbm, ⟨36, _⟩ => ⟨S_, .f32⟩
  | .hbm, ⟨37, _⟩ => ⟨S256x256, .f32⟩
  | .hbm, ⟨38, _⟩ => ⟨S256x256x1, .f32⟩
  | .hbm, ⟨39, _⟩ => ⟨S256x256x256, .f32⟩
  | .hbm, ⟨40, _⟩ => ⟨S256x256x256, .f32⟩
  | .hbm, ⟨41, _⟩ => ⟨S256x256x64, .f32⟩
  | _, _ => ⟨S256x256x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S256x256x256 : S_.BroadcastsInDim S256x256x256 (![] : Fin 0 → Fin S256x256x256.rank)
  bcast_S_S256x256 : S_.BroadcastsInDim S256x256 (![] : Fin 0 → Fin S256x256.rank)
  bcast_S256x256_S256x256x256_1_2 : S256x256.BroadcastsInDim S256x256x256 (![1, 2] : Fin 2 → Fin S256x256x256.rank)
  reducesTo_S256x256x256_S256x256_d2 : S256x256x256.ReducesTo [2] S256x256
  h_S_ : 0 < S_.numel
  bcast_S256x256_S256x256x1_0_1 : S256x256.BroadcastsInDim S256x256x1 (![0, 1] : Fin 2 → Fin S256x256x1.rank)
  bcast_S256x256x1_S256x256x256_0_1_2 : S256x256x1.BroadcastsInDim S256x256x256 (![0, 1, 2] : Fin 3 → Fin S256x256x256.rank)
  dot_S256x256x384_S64x384_S256x256x64_2_1_01_0_n_n_wf : DotDims.WF S256x256x384 S64x384 S256x256x64 [2] [1] [0, 1] [0] [] []
  dot_S256x256x64_S256x256x64_S256x256x256_2_2_1_1_0_0_wf : DotDims.WF S256x256x64 S256x256x64 S256x256x256 [2] [2] [1] [1] [0] [0]
  dot_S256x256x256_S256x256x64_S256x256x64_2_1_1_2_0_0_wf : DotDims.WF S256x256x256 S256x256x64 S256x256x64 [2] [1] [1] [2] [0] [0]

variable [Facts₀]

def dot_S256x256x384_S64x384_S256x256x64_2_1_01_0_n_n : DotDims S256x256x384 S64x384 S256x256x64 where
  lhsContracting := [2]
  rhsContracting := [1]
  lhsNonContracting := [0, 1]
  rhsNonContracting := [0]
  lhsBatch := []
  rhsBatch := []
  wf := dot_S256x256x384_S64x384_S256x256x64_2_1_01_0_n_n_wf
def dot_S256x256x64_S256x256x64_S256x256x256_2_2_1_1_0_0 : DotDims S256x256x64 S256x256x64 S256x256x256 where
  lhsContracting := [2]
  rhsContracting := [2]
  lhsNonContracting := [1]
  rhsNonContracting := [1]
  lhsBatch := [0]
  rhsBatch := [0]
  wf := dot_S256x256x64_S256x256x64_S256x256x256_2_2_1_1_0_0_wf
def dot_S256x256x256_S256x256x64_S256x256x64_2_1_1_2_0_0 : DotDims S256x256x256 S256x256x64 S256x256x64 where
  lhsContracting := [2]
  rhsContracting := [1]
  lhsNonContracting := [1]
  rhsNonContracting := [2]
  lhsBatch := [0]
  rhsBatch := [0]
  wf := dot_S256x256x256_S256x256x64_S256x256x64_2_1_1_2_0_0_wf

class Facts : Prop extends Facts₀ where

variable [Facts]
-- ==== Proof.AttnSpec.lean ====
/-
  One head of causal self-attention over the extended reals, index by index.

  The input is a batch of 256 sequences of 256 tokens of width 384 and three 64 × 384 weight matrices.  Each token is
  projected on the rows of a weight matrix (`proj`), giving per sequence a key, a query and a value matrix of
  256 rows and 64 columns.  For one sequence (`head…`): the score of query row t against key row s is their inner product
  times 1/8, kept where s is not after t (`visible`) and replaced by the constant −10³⁰ elsewhere; each row of scores is
  shifted by its maximum, exponentiated and divided by the row's total; the result row is that combination of the value
  rows.  Sums run over `Fin` types and the maximum is a `Finset.fold` of `max` from −∞, so nothing depends on an order
  of evaluation; the three constants stay the words the programs print, and are never evaluated.
-/
import Idealize.ShloMosaic.PureOps.Ideal
import Idealize.ShloMosaic.Lib.ValueIdx

noncomputable section

namespace Cert.AttnSpec

open Idealize.ShloMosaic Idealize.ShloMosaic.ValueIdx

/-- The token array, a weight matrix, the result array. -/
abbrev SX : Shape := ⟨3, ![256, 256, 384]⟩
abbrev SW : Shape := ⟨2, ![64, 384]⟩
abbrev SO : Shape := ⟨3, ![256, 256, 64]⟩

/-- Token t of sequence b against row h of a weight matrix. -/
def proj (x : SX.Idx → EReal) (W : SW.Idx → EReal) (b t : Fin 256) (h : Fin 64) : EReal :=
  ∑ c : Fin 384, x (ix3 b t c) * W (ix2 h c)

/-- Whether key position s may be seen from query position t: the signed comparison t ≥ s of the two positions as
    32-bit words, as a one-bit word. -/
def visible (t s : Fin 256) : BitVec 1 := IntOp.cmpi .sge (BitVec.ofNat 32 t.val) (BitVec.ofNat 32 s.val)

section Head

variable (Q K V : Fin 256 → Fin 64 → EReal)

/-- The masked, scaled score of query row t against key row s. -/
def headScore (t s : Fin 256) : EReal :=
  Scalar.select (visible t s) ((∑ h : Fin 64, Q t h * K s h) * Ideal.ofBits .f32 0x3E000000#32)
    (Ideal.ofBits .f32 0xF149F2CA#32)

/-- The largest score of row t (at least −∞). -/
def headMax (t : Fin 256) : EReal :=
  (Finset.univ : Finset (Fin 256)).fold max (Ideal.ofBits .f32 0xFF800000#32) (headScore Q K t)

/-- The unnormalised weight of key s for query t. -/
def headWeight (t s : Fin 256) : EReal := Ideal.exp (headScore Q K t s - headMax Q K t)

/-- The total weight of row t. -/
def headTotal (t : Fin 256) : EReal := ∑ s : Fin 256, headWeight Q K t s

/-- Row t of the result: the value rows combined with the normalised weights. -/
def headOut (t : Fin 256) (h : Fin 64) : EReal :=
  ∑ s : Fin 256, Ideal.div (headWeight Q K t s) (headTotal Q K t) * V s h

end Head

/-- The whole result: sequence `i 0`, query row `i 1`, column `i 2`. -/
def attn (x : SX.Idx → EReal) (Wk Wq Wv : SW.Idx → EReal) (i : SO.Idx) : EReal :=
  headOut (proj x Wq (i 0)) (proj x Wk (i 0)) (proj x Wv (i 0)) (i 1) (i 2)

end Cert.AttnSpec

end
-- ==== Proof.AttnRef.lean ====
/-
  The reference program's result, read at one index on the extended reals, is the attention function.

  Each of its operations is read at an index: the three projections contract the width 384; the scores contract the 64
  columns of a query row against a key row of the same sequence, are scaled, and are kept under the lower-triangular mask
  (row position plus zero compared with column position, selected between true and false: the comparison itself);
  the row maximum is a fold of `max` from −∞, and taking its maximum with −∞ once more changes nothing; the total
  starts from the word 0, which is the number 0.
-/
import proofs.«110421_j1915555414232_2_alg».proof.Proof.Gen.ReferenceIdeal.Read
import proofs.«110421_j1915555414232_2_alg».proof.Proof.AttnSpec

set_option maxRecDepth 16384

noncomputable section

namespace Cert.AttnRef

open Idealize.ShloMosaic Idealize.ShloMosaic.ValueIdx Cert.ReferenceIdeal Cert.ReferenceIdeal.Gen Cert.ReferenceIdeal.Read Cert.AttnSpec

variable (x : (⟨S256x256x384, .f32⟩ : BufTy).Contents (Elt Ideal))
  (Wk Wq Wv : (⟨S64x384, .f32⟩ : BufTy).Contents (Elt Ideal))

/-! ## The projections -/

theorem keys_apply (b t : Fin 256) (h : Fin 64) : val_main_v0 (F := Ideal) x Wk (ix3 b t h) = proj x Wk b t h := by
  rw [val_main_v0_apply]
  unfold proj
  exact Finset.sum_congr rfl fun c _ => congrArg₂ (· * ·)
    (congrArg x (funext fun a => Fin.ext (by match a with | ⟨0, _⟩ => rfl | ⟨1, _⟩ => rfl | ⟨2, _⟩ => rfl)))
    (congrArg Wk (funext fun a => Fin.ext (by match a with | ⟨0, _⟩ => rfl | ⟨1, _⟩ => rfl)))

theorem queries_apply (b t : Fin 256) (h : Fin 64) : val_main_v1 (F := Ideal) x Wq (ix3 b t h) = proj x Wq b t h := by
  rw [val_main_v1_apply]
  unfold proj
  exact Finset.sum_congr rfl fun c _ => congrArg₂ (· * ·)
    (congrArg x (funext fun a => Fin.ext (by match a with | ⟨0, _⟩ => rfl | ⟨1, _⟩ => rfl | ⟨2, _⟩ => rfl)))
    (congrArg Wq (funext fun a => Fin.ext (by match a with | ⟨0, _⟩ => rfl | ⟨1, _⟩ => rfl)))

theorem values_apply (b t : Fin 256) (h : Fin 64) : val_main_v2 (F := Ideal) x Wv (ix3 b t h) = proj x Wv b t h := by
  rw [val_main_v2_apply]
  unfold proj
  exact Finset.sum_congr rfl fun c _ => congrArg₂ (· * ·)
    (congrArg x (funext fun a => Fin.ext (by match a with | ⟨0, _⟩ => rfl | ⟨1, _⟩ => rfl | ⟨2, _⟩ => rfl)))
    (congrArg Wv (funext fun a => Fin.ext (by match a with | ⟨0, _⟩ => rfl | ⟨1, _⟩ => rfl)))

/-! ## The mask -/

/-- A one-bit word selects itself between true and false. -/
theorem select_bit (c : BitVec 1) : Scalar.select c (1#1 : BitVec 1) 0#1 = c := by
  by_cases h : c = 1#1
  · subst h; rfl
  · rw [eq_zero_of_ne_one h]; rfl

/-- The lower-triangular mask at (t, s) is the comparison of the two positions. -/
theorem mask_apply (t s : Fin 256) : val_main_v7 (F := Ideal) (ix2 t s) = visible t s := by
  rw [val_main_v7_apply, val_main_call0_v4_apply, val_main_call0_v2_apply, val_main_call0_v0_apply,
    val_main_call0_v3_apply, val_main_call0_v1_apply, val_main_call0_c_apply, val_main_v6_apply, val_main_c_apply,
    val_main_call0_v5_apply, val_main_call0_c_0_apply, select_bit]
  show IntOp.cmpi .sge (BitVec.ofNat 32 t.val + 0#32) (BitVec.ofNat 32 s.val) = _
  rw [BitVec.add_zero]
  rfl

/-! ## One sequence's scores, weights and totals -/

/-- The masked, scaled scores at (b, t, s). -/
theorem scores_apply (b t s : Fin 256) :
    val_main_v8 (F := Ideal) x Wk Wq (ix3 b t s) = headScore (proj x Wq b) (proj x Wk b) t s := by
  rw [val_main_v8_apply, val_main_call1_v1_apply, val_main_v5_apply, val_main_v3_apply, val_main_v4_apply,
    val_main_cst_apply, val_main_call1_v2_apply, val_main_call1_v0_apply, val_main_cst_0_apply,
    show idx_main_call1_v1 (ix3 b t s) = ix2 t s from
      funext fun a => Fin.ext (by match a with | ⟨0, _⟩ => rfl | ⟨1, _⟩ => rfl),
    mask_apply]
  unfold headScore
  refine congrArg (fun z => Scalar.select (visible t s) (z * _) _) (Finset.sum_congr rfl fun h _ => ?_)
  rw [show lidx_main_v3 (ix3 b t s) h = ix3 b t h from
      funext fun a => Fin.ext (by match a with | ⟨0, _⟩ => rfl | ⟨1, _⟩ => rfl | ⟨2, _⟩ => rfl),
    show ridx_main_v3 (ix3 b t s) h = ix3 b s h from
      funext fun a => Fin.ext (by match a with | ⟨0, _⟩ => rfl | ⟨1, _⟩ => rfl | ⟨2, _⟩ => rfl),
    queries_apply, keys_apply]

/-- The index over (b, t) with last coordinate s. -/
theorem lift_last (hr : S256x256x256.Reduces [2] S256x256) (b t s : Fin 256) : hr.lift (ix2 b t) s = ix3 b t s :=
  funext fun c => Fin.ext (by
    show hr.liftVal (ix2 b t) s.val c = (ix3 b t s c).val
    unfold Shape.Reduces.liftVal
    match c with
    | ⟨0, _⟩ => rfl
    | ⟨1, _⟩ => rfl
    | ⟨2, _⟩ => rfl)

/-- The row maximum at (b, t), after the extra maximum with −∞. -/
theorem rowmax_apply (b t : Fin 256) :
    val_main_v11 (F := Ideal) x Wk Wq (ix2 b t) = headMax (proj x Wq b) (proj x Wk b) t := by
  have hr : S256x256x256.Reduces [2] S256x256 := by decide
  rw [val_main_v11_apply, val_main_v10_apply, val_main_cst_2_apply]
  unfold val_main_v9
  rw [Host.reduce_eq_fold_single FloatOps.maximumf _ _ reducesTo_S256x256x256_S256x256_d2 hr h_S_]
  have e : (val_main_v8 (F := Ideal) x Wk Wq ∘ hr.lift (ix2 b t)) = headScore (proj x Wq b) (proj x Wk b) t :=
    funext fun s => (congrArg (val_main_v8 (F := Ideal) x Wk Wq) (lift_last hr b t s)).trans (scores_apply x Wk Wq b t s)
  rw [e]
  unfold headMax
  show max (Ideal.ofBits .f32 0xFF800000#32)
      (Finset.fold max (Ideal.ofBits .f32 0xFF800000#32) (headScore (proj x Wq b) (proj x Wk b) t) Finset.univ) = _
  exact max_eq_right ((Finset.le_fold_max _).mpr (Or.inl le_rfl))

/-- The unnormalised weights at (b, t, s). -/
theorem weights_apply (b t s : Fin 256) :
    val_main_v15 (F := Ideal) x Wk Wq (ix3 b t s) = headWeight (proj x Wq b) (proj x Wk b) t s := by
  rw [val_main_v15_apply, val_main_v14_apply, val_main_v13_apply, val_main_v12_apply,
    show idx_main_v12 (idx_main_v13 (ix3 b t s)) = ix2 b t from
      funext fun a => Fin.ext (by match a with | ⟨0, _⟩ => rfl | ⟨1, _⟩ => rfl),
    rowmax_apply, scores_apply]
  rfl

/-- The row totals at (b, t). -/
theorem totals_apply (b t : Fin 256) :
    val_main_v16 (F := Ideal) x Wk Wq (ix2 b t) = headTotal (proj x Wq b) (proj x Wk b) t := by
  rw [val_main_v16_apply, val_main_cst_3_apply]
  unfold headTotal
  show Ideal.ofBits .f32 0x00000000#32 + _ = _
  rw [Ideal.ofBits_zero_f32, zero_add]
  refine Finset.sum_congr rfl fun s _ => ?_
  rw [show idx_main_v16 (ix2 b t) s = ix3 b t s from
      funext fun a => Fin.ext (by match a with | ⟨0, _⟩ => rfl | ⟨1, _⟩ => rfl | ⟨2, _⟩ => rfl),
    weights_apply]

/-! ## The result -/

/-- The reference's result is the attention function of its four arguments. -/
theorem result_eq : val_main_v20 (F := Ideal) x Wk Wq Wv = attn x Wk Wq Wv := by
  funext i
  obtain ⟨b, t, h, rfl⟩ : ∃ (b t : Fin 256) (h : Fin 64), i = ix3 b t h := ⟨i 0, i 1, i 2, eq_ix3 i⟩
  rw [val_main_v20_apply]
  show _ = headOut (proj x Wq b) (proj x Wk b) (proj x Wv b) t h
  unfold headOut
  refine Finset.sum_congr rfl fun s _ => ?_
  rw [show lidx_main_v20 (ix3 b t h) s = ix3 b t s from
      funext fun a => Fin.ext (by match a with | ⟨0, _⟩ => rfl | ⟨1, _⟩ => rfl | ⟨2, _⟩ => rfl),
    show ridx_main_v20 (ix3 b t h) s = ix3 b s h from
      funext fun a => Fin.ext (by match a with | ⟨0, _⟩ => rfl | ⟨1, _⟩ => rfl | ⟨2, _⟩ => rfl),
    values_apply, val_main_v19_apply, val_main_v18_apply, val_main_v17_apply,
    show idx_main_v17 (idx_main_v18 (ix3 b t s)) = ix2 b t from
      funext fun a => Fin.ext (by match a with | ⟨0, _⟩ => rfl | ⟨1, _⟩ => rfl),
    totals_apply, weights_apply]
  rfl

end Cert.AttnRef

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibColOps.lean ====
/-
  More two-dimensional vector operations read at one index, on the extended reals.

  A matrix product that contracts the SECOND axis of both operands, [M, K] against [N, K], is at (r, c) the sum over
  the shared axis of the left operand's row r against the right operand's row c.  A sum along the FIRST axis of an
  [a, b] vector is, at column c, the sum of that column.  An [a, p] vector with two [a, 1] columns appended along the
  second axis reads, at (r, e), the first piece for e < p, the first column at e = p and the second at e = p + 1; a sum
  over the p + 2 positions of such a row therefore splits into the sum over the first p and the two last terms.
-/
import Idealize.ShloMosaic.PureOps.Ideal.Laws
import Idealize.ShloMosaic.Lib.ValueIdx
import Idealize.ShloMosaic.Lib.Pipeline.Value

noncomputable section

namespace Cert.ColOps

open Idealize.ShloMosaic Idealize.ShloMosaic.ValueIdx

/-! ## A matrix product contracting both operands' second axes -/

/-- The dimension numbers of an `[M, K] × [N, K]` product: contract the second axis of each operand, no batch axis. -/
structure IsRowRow {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

section RowRow

variable {M K N : Nat} {d : DotDims ⟨2, ![M, K]⟩ ⟨2, ![N, K]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsRowRow d) : d.contr.rank = 1 := by
  rw [d.rank_contr, hd.lc]; rfl

theorem contr_size (hd : IsRowRow d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsRowRow d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's row coordinate is the result's column coordinate. -/
theorem rhsIdx_row (hd : IsRowRow d) (j : (⟨2, ![M, N]⟩ : Shape).Idx) (k : d.contr.Idx) :
    (d.rhsIdx j k 0).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- Such a product into a zero accumulator, at (r, c): the sum over the shared axis of row r against row c. -/
theorem matmul_zero_apply (hd : IsRowRow d) {φ₁ φ₂ : FTy} (prec : Option ContractPrecision)
    (lhs : FVec Ideal ⟨2, ![M, K]⟩ φ₁) (rhs : FVec Ideal ⟨2, ![N, K]⟩ φ₂) (r : Fin M) (c : Fin N) :
    FloatOps.matmul d prec lhs rhs (constant ⟨2, ![M, N]⟩ .f32 0x00000000#32) (ix2 r c)
      = ∑ k : Fin K, lhs (ix2 r k) * rhs (ix2 c k) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 c k :=
    funext fun a => Fin.ext (by
      match a with
      | ⟨0, _⟩ => exact rhsIdx_row hd _ _
      | ⟨1, _⟩ => exact (d.rhsIdx_val_of_single hd.rc _ _).trans hk)
  rw [el, er]

end RowRow

/-! ## A sum along the first axis -/

section Cols

variable {a b : Nat} {φ : FTy}

/-- The index over column `c` with first coordinate `k`. -/
theorem lift_col (h : (⟨2, ![a, b]⟩ : Shape).Reduces [0] ⟨1, ![b]⟩) (c : Fin b) (k : Fin a) :
    h.lift (ix1 c) k = ix2 k c :=
  funext fun x => Fin.ext (by
    show h.liftVal (ix1 c) k.val x = (ix2 k c x).val
    unfold Shape.Reduces.liftVal
    match x with
    | ⟨0, _⟩ => rfl
    | ⟨1, _⟩ => rfl)

/-- A sum along the first axis, at column `c`: the sum of that column. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_col h c k)

end Cols

/-! ## Two columns appended to a matrix -/

section Append

variable {α : Type} {a p q : Nat}

/-- Left of the appended columns the concatenation reads the matrix. -/
theorem append2_left (x : (⟨2, ![a, p]⟩ : Shape).Idx → α) (y z : (⟨2, ![a, 1]⟩ : Shape).Idx → α)
    (h : Shape.Concatenates [⟨2, ![a, p]⟩, ⟨2, ![a, 1]⟩, ⟨2, ![a, 1]⟩] ⟨2, ![a, q]⟩ 1)
    (r : Fin a) (e : Fin q) (he : e.val < p) :
    concatenate ⟨2, ![a, q]⟩ 1 [⟨⟨2, ![a, p]⟩, x⟩, ⟨⟨2, ![a, 1]⟩, y⟩, ⟨⟨2, ![a, 1]⟩, z⟩] h (ix2 r e)
      = x (ix2 r ⟨e.val, he⟩) :=
  concatenate_apply_piece (t := ⟨2, ![a, q]⟩) 1 [⟨⟨2, ![a, p]⟩, x⟩, ⟨⟨2, ![a, 1]⟩, y⟩, ⟨⟨2, ![a, 1]⟩, z⟩] h (ix2 r e) 0 (by simp) ⟨2, ![a, p]⟩ x rfl rfl 0 rfl (ix2 r ⟨e.val, he⟩)
    (fun b hb => by
      match b with
      | ⟨0, _⟩ => rfl
      | ⟨1, _⟩ => exact absurd rfl hb)
    (Nat.zero_add _)

/-- At position `p` it reads the first appended column. -/
theorem append2_mid (x : (⟨2, ![a, p]⟩ : Shape).Idx → α) (y z : (⟨2, ![a, 1]⟩ : Shape).Idx → α)
    (h : Shape.Concatenates [⟨2, ![a, p]⟩, ⟨2, ![a, 1]⟩, ⟨2, ![a, 1]⟩] ⟨2, ![a, q]⟩ 1)
    (r : Fin a) (e : Fin q) (he : e.val = p) :
    concatenate ⟨2, ![a, q]⟩ 1 [⟨⟨2, ![a, p]⟩, x⟩, ⟨⟨2, ![a, 1]⟩, y⟩, ⟨⟨2, ![a, 1]⟩, z⟩] h (ix2 r e)
      = y (ix2 r (0 : Fin 1)) :=
  concatenate_apply_piece (t := ⟨2, ![a, q]⟩) 1 [⟨⟨2, ![a, p]⟩, x⟩, ⟨⟨2, ![a, 1]⟩, y⟩, ⟨⟨2, ![a, 1]⟩, z⟩] h (ix2 r e) 1 (by simp) ⟨2, ![a, 1]⟩ y rfl rfl p (by simp) (ix2 r (0 : Fin 1))
    (fun b hb => by
      match b with
      | ⟨0, _⟩ => rfl
      | ⟨1, _⟩ => exact absurd rfl hb)
    (by show p + 0 = e.val; omega)

/-- At position `p + 1` it reads the second appended column. -/
theorem append2_right (x : (⟨2, ![a, p]⟩ : Shape).Idx → α) (y z : (⟨2, ![a, 1]⟩ : Shape).Idx → α)
    (h : Shape.Concatenates [⟨2, ![a, p]⟩, ⟨2, ![a, 1]⟩, ⟨2, ![a, 1]⟩] ⟨2, ![a, q]⟩ 1)
    (r : Fin a) (e : Fin q) (he : e.val = p + 1) :
    concatenate ⟨2, ![a, q]⟩ 1 [⟨⟨2, ![a, p]⟩, x⟩, ⟨⟨2, ![a, 1]⟩, y⟩, ⟨⟨2, ![a, 1]⟩, z⟩] h (ix2 r e)
      = z (ix2 r (0 : Fin 1)) :=
  concatenate_apply_piece (t := ⟨2, ![a, q]⟩) 1 [⟨⟨2, ![a, p]⟩, x⟩, ⟨⟨2, ![a, 1]⟩, y⟩, ⟨⟨2, ![a, 1]⟩, z⟩] h (ix2 r e) 2 (by simp) ⟨2, ![a, 1]⟩ z rfl rfl (p + 1) (by simp) (ix2 r (0 : Fin 1))
    (fun b hb => by
      match b with
      | ⟨0, _⟩ => rfl
      | ⟨1, _⟩ => exact absurd rfl hb)
    (by show p + 1 + 0 = e.val; omega)

end Append

/-- A sum over `p + 2` positions: the first `p`, then the two last. -/
theorem sum_append2 {M : Type*} [AddCommMonoid M] (p : Nat) (f : Fin (p + 2) → M) :
    ∑ e, f e = ∑ d : Fin p, f ⟨d.val, by omega⟩ + f ⟨p, by omega⟩ + f ⟨p + 1, by omega⟩ := by
  rw [Fin.sum_univ_castSucc, Fin.sum_univ_castSucc]
  rfl

end Cert.ColOps

end
-- ==== Proof.LibRowSoftmax.lean ====
/-
  A row-wise softmax of an [a, b] vector of extended reals, read at one index.

  The kernel spelling: take each row's maximum (a fold of `max` from a starting word's value), view the a maxima as an
  [a, 1] column and repeat it along the second axis, subtract, exponentiate, sum each row, repeat the totals the same way,
  and divide.  At (r, c) that is exp (S r c − M r) over the sum over c' of exp (S r c' − M r), with M r the fold of `max`
  over row r.
-/
import proofs.«110421_j1915555414232_2_alg».proof.Proof.LibRowOps

noncomputable section

namespace Cert.RowSoftmax

open Idealize.ShloMosaic Idealize.ShloMosaic.ValueIdx Cert.RowOps

variable {a b : Nat}

/-- The maximum of row `r`, from the value of the starting word. -/
def rowMax (S : FVec Ideal ⟨2, ![a, b]⟩ .f32) (start : BitVec 32) (r : Fin a) : EReal :=
  (Finset.univ : Finset (Fin b)).fold max (Ideal.ofBits .f32 start) (fun c => S (ix2 r c))

variable (S : FVec Ideal ⟨2, ![a, b]⟩ .f32) (start zero : BitVec 32)
  (hr : (⟨2, ![a, b]⟩ : Shape).Reduces [1] ⟨1, ![a]⟩) (hφ : FKind.Formats .f32)
  (hm : start = FKind.maximumf.neutral .f32 hφ) (hz : zero = FKind.add.neutral .f32 hφ)
  (hc : (⟨1, ![a]⟩ : Shape).ShapeCasts ⟨2, ![a, 1]⟩) (hb : (⟨2, ![a, 1]⟩ : Shape).Broadcasts ⟨2, ![a, b]⟩)

/-- The shifted and exponentiated rows, at (r, c). -/
theorem shifted_apply (r : Fin a) (c : Fin b) :
    exp (subf S (broadcastTo ⟨2, ![a, b]⟩ (shapeCast ⟨2, ![a, 1]⟩
        (multiReduction .maximumf [1] ⟨1, ![a]⟩ S start hr hφ hm) hc) hb)) (ix2 r c)
      = Ideal.exp (S (ix2 r c) - rowMax S start r) := by
  show Ideal.exp (S (ix2 r c) - broadcastTo ⟨2, ![a, b]⟩ (shapeCast ⟨2, ![a, 1]⟩
        (multiReduction .maximumf [1] ⟨1, ![a]⟩ S start hr hφ hm) hc) hb (ix2 r c)) = _
  rw [spread_apply, column_apply, rowMax_apply]
  rfl

/-- The normalised rows, at (r, c). -/
theorem softmax_apply (r : Fin a) (c : Fin b) :
    divf (exp (subf S (broadcastTo ⟨2, ![a, b]⟩ (shapeCast ⟨2, ![a, 1]⟩
          (multiReduction .maximumf [1] ⟨1, ![a]⟩ S start hr hφ hm) hc) hb)))
        (broadcastTo ⟨2, ![a, b]⟩ (shapeCast ⟨2, ![a, 1]⟩
          (multiReduction .add [1] ⟨1, ![a]⟩
            (exp (subf S (broadcastTo ⟨2, ![a, b]⟩ (shapeCast ⟨2, ![a, 1]⟩
              (multiReduction .maximumf [1] ⟨1, ![a]⟩ S start hr hφ hm) hc) hb))) zero hr hφ hz) hc) hb) (ix2 r c)
      = Ideal.div (Ideal.exp (S (ix2 r c) - rowMax S start r))
          (∑ c' : Fin b, Ideal.exp (S (ix2 r c') - rowMax S start r)) := by
  show Ideal.div (exp (subf S (broadcastTo ⟨2, ![a, b]⟩ (shapeCast ⟨2, ![a, 1]⟩
          (multiReduction .maximumf [1] ⟨1, ![a]⟩ S start hr hφ hm) hc) hb)) (ix2 r c))
        (broadcastTo ⟨2, ![a, b]⟩ (shapeCast ⟨2, ![a, 1]⟩
          (multiReduction .add [1] ⟨1, ![a]⟩
            (exp (subf S (broadcastTo ⟨2, ![a, b]⟩ (shapeCast ⟨2, ![a, 1]⟩
              (multiReduction .maximumf [1] ⟨1, ![a]⟩ S start hr hφ hm) hc) hb))) zero hr hφ hz) hc) hb (ix2 r c)) = _
  rw [spread_apply, column_apply, rowSum_apply, shifted_apply]
  exact congrArg (Ideal.div _) (Finset.sum_congr rfl fun c' _ => shifted_apply S start hr hφ hm hc hb r c')

end Cert.RowSoftmax

end
-- ==== Proof.AttnBody.lean ====
/-
  The kernel body's arithmetic, read at one index on the extended reals.

  The body first projects its block of 16 sequences on the three weight matrices: the block is viewed as 4096 token rows,
  multiplied against the 64 weight rows, and viewed as 16 × 256 × 64 again, so entry (b, t, h) is token (b, t) against weight
  row h.  Then, per sequence, it forms the 256 × 256 scores, masks them, and normalises each row by its maximum and total before
  combining the value rows: that is one head of attention on the three 256 × 64 matrices it is given.
-/
import proofs.«110421_j1915555414232_2_alg».proof.Proof.Gen.KernelIdeal.Skeleton
import proofs.«110421_j1915555414232_2_alg».proof.Proof.AttnSpec
import proofs.«110421_j1915555414232_2_alg».proof.Proof.LibRowOps
import proofs.«110421_j1915555414232_2_alg».proof.Proof.LibColOps
import proofs.«110421_j1915555414232_2_alg».proof.Proof.LibRowSoftmax

set_option maxRecDepth 16384

noncomputable section

namespace Cert.AttnBody

open Idealize.ShloMosaic Idealize.ShloMosaic.ValueIdx Cert.KernelIdeal Cert.KernelIdeal.Gen Cert.AttnSpec

/-- The three projections are one function of the block and a weight matrix. -/
theorem pay3_eq_pay2 : k0_pay3 (F := Ideal) = k0_pay2 (F := Ideal) := rfl
theorem pay4_eq_pay2 : k0_pay4 (F := Ideal) = k0_pay2 (F := Ideal) := rfl

/-- Entry (b, t, h) of a projected block: token (b, t) of the block against row h of the weight matrix.  Row b·256 + t of
    the 4096-row view is token (b, t), in both directions of the change of view. -/
theorem proj_payload (x0 : Vec Ideal S16x256x384 .f32) (w : Vec Ideal S64x384 .f32) (b : Fin 16) (t : Fin 256) (h : Fin 64) :
    k0_pay2 (F := Ideal) x0 w (ix3 b t h) = ∑ c : Fin 384, x0 (ix3 b t c) * w (ix2 h c) := by
  have hn : b.val * 256 + t.val < 4096 := by have := b.isLt; have := t.isLt; omega
  unfold k0_pay2
  rw [shapeCast_self, truncf_apply]
  refine (shapeCast_apply _ shapeCasts_S4096x64_S16x256x64 (ix3 b t h) (ix2 (⟨b.val * 256 + t.val, hn⟩ : Fin 4096) h) ?_).trans ?_
  · rw [Shape.rowMajor_val_two, Shape.rowMajor_val_three]; rfl
  refine (Cert.ColOps.matmul_zero_apply ⟨rfl, rfl, rfl, rfl, rfl, rfl⟩ none _ _ _ _).trans ?_
  refine Finset.sum_congr rfl fun c _ => ?_
  rw [truncf_apply]
  congr 1
  unfold k0_pay1
  exact shapeCast_apply _ shapeCasts_S16x256x384_S4096x384 (ix2 (⟨b.val * 256 + t.val, hn⟩ : Fin 4096) c) (ix3 b t c)
    (by rw [Shape.rowMajor_val_two, Shape.rowMajor_val_three]; rfl)

/-- A [1, 256, 64] vector viewed as 256 × 64 reads, at (r, h), the vector at (0, r, h). -/
theorem slab_apply {α : Type} (q : S1x256x64.Idx → α) (r : Fin 256) (h : Fin 64) :
    shapeCast S256x64 q shapeCasts_S1x256x64_S256x64 (ix2 r h) = q (ix3 (0 : Fin 1) r h) :=
  (shapeCast_dropUnit_apply ![256, 64] q shapeCasts_S1x256x64_S256x64 (ix2 r h)).trans
    (congrArg q (funext fun a => by match a with | ⟨0, _⟩ => rfl | ⟨1, _⟩ => rfl | ⟨2, _⟩ => rfl))

section Head

variable (q k v : Vec Ideal S1x256x64 .bf16)

/-- The masked and scaled scores of the body, at (t, s): the two position counters are the coordinates as words, and the
    product against the key rows contracts the 64 columns. -/
theorem score_payload (t s : Fin 256) :
    select (cmpi CmpIPredicate.sge (iota Kind.tc S256x256 32 [0] iota_S256x256_d0_w32)
        (iota Kind.tc S256x256 32 [1] iota_S256x256_d1_w32))
      (mulf (matmul (F := Ideal) dot_S256x64_S256x64_S256x256_1_1_0_0_n_n none
          (shapeCast S256x64 q shapeCasts_S1x256x64_S256x64 : FVec Ideal S256x64 .bf16)
          (shapeCast S256x64 k shapeCasts_S1x256x64_S256x64 : FVec Ideal S256x64 .bf16)
          (constant S256x256 FTy.f32 0x00000000#32))
        (broadcast S256x256 (FloatOps.ofBits (F := Ideal) FTy.f32 0x3E000000#32)))
      (broadcast S256x256 (FloatOps.ofBits (F := Ideal) FTy.f32 0xF149F2CA#32)) (ix2 t s)
      = headScore (fun t h => q (ix3 (0 : Fin 1) t h)) (fun s h => k (ix3 (0 : Fin 1) s h)) t s := by
  show Scalar.select (IntOp.cmpi CmpIPredicate.sge (iota Kind.tc S256x256 32 [0] iota_S256x256_d0_w32 (ix2 t s))
        (iota Kind.tc S256x256 32 [1] iota_S256x256_d1_w32 (ix2 t s)))
      (FloatOps.matmul dot_S256x64_S256x64_S256x256_1_1_0_0_n_n none
          (shapeCast S256x64 q shapeCasts_S1x256x64_S256x64 : FVec Ideal S256x64 .bf16)
          (shapeCast S256x64 k shapeCasts_S1x256x64_S256x64 : FVec Ideal S256x64 .bf16)
          (constant S256x256 FTy.f32 0x00000000#32) (ix2 t s) * Ideal.ofBits .f32 0x3E000000#32)
      (Ideal.ofBits .f32 0xF149F2CA#32) = _
  rw [iota_single_apply, iota_single_apply, Cert.ColOps.matmul_zero_apply ⟨rfl, rfl, rfl, rfl, rfl, rfl⟩]
  unfold headScore visible
  simp only [slab_apply]

/-- Rows of scores that are a head's scores normalise to the head's weights over its totals. -/
theorem softmax_of_scores (S : FVec Ideal S256x256 .f32) (Q K : Fin 256 → Fin 64 → EReal)
    (hS : ∀ t s, S (ix2 t s) = headScore Q K t s) (t s : Fin 256) :
    Ideal.div (Ideal.exp (S (ix2 t s) - Cert.RowSoftmax.rowMax S 0xFF800000#32 t))
        (∑ c' : Fin 256, Ideal.exp (S (ix2 t c') - Cert.RowSoftmax.rowMax S 0xFF800000#32 t))
      = Ideal.div (headWeight Q K t s) (headTotal Q K t) := by
  unfold headTotal headWeight headMax Cert.RowSoftmax.rowMax
  simp only [hS]

/-- One sequence's step of the body is one head of attention on the three matrices it reads. -/
theorem head_payload (t : Fin 256) (h : Fin 64) :
    k0_pay5 (F := Ideal) q k v (ix3 (0 : Fin 1) t h)
      = headOut (fun t h => q (ix3 (0 : Fin 1) t h)) (fun s h => k (ix3 (0 : Fin 1) s h)) (fun s h => v (ix3 (0 : Fin 1) s h)) t h := by
  unfold k0_pay5
  refine (shapeCast_addUnit_apply ![256, 64] _ shapeCasts_S256x64_S1x256x64 (ix3 (0 : Fin 1) t h)).trans ?_
  rw [show (fun a : Fin 2 => (ix3 (0 : Fin 1) t h) a.succ) = ix2 t h from
    funext fun a => by match a with | ⟨0, _⟩ => rfl | ⟨1, _⟩ => rfl]
  refine (Cert.RowOps.matmul_zero_apply ⟨rfl, rfl, rfl, rfl, rfl, rfl⟩ none _ _ t h).trans ?_
  unfold headOut
  refine Finset.sum_congr rfl fun s _ => ?_
  exact congrArg₂ (· * ·)
    ((Cert.RowSoftmax.softmax_apply _ _ _ _ _ _ _ _ _ t s).trans (softmax_of_scores _ _ _ (score_payload q k) t s))
    (slab_apply v s h)

end Head

end Cert.AttnBody

end
-- ==== Proof.AttnBlock.lean ====
/-
  What one grid point of the kernel leaves in its output block, as one function of the point's input blocks.

  The body stores the three projected blocks into its scratch buffers, whole, and then runs sixteen trips; trip k reads
  sequence k of each scratch buffer and stores one head of attention on them into sequence k of the output block.  The
  stores of different trips never meet and together fill the block, so the block read back is, at (b, t, h), the trip-b payload
  of sequence b of the three projections, at (0, t, h) — whatever the buffers held before.
-/
import proofs.«110421_j1915555414232_2_alg».proof.Proof.Gen.KernelIdeal.Frame
import Idealize.ShloMosaic.Lib.Pipeline.Value
import Idealize.ShloMosaic.Lib.ValueIdx

set_option maxRecDepth 16384

noncomputable section

namespace Cert.AttnBlock

open Idealize.ShloMosaic Idealize.ShloMosaic.TcCoe Idealize.ShloMosaic.Tactic Idealize.ShloMosaic.ValueIdx
open Idealize.SL Idealize.SL.Sem
open Cert.KernelIdeal Cert.KernelIdeal.Gen

variable {F : FTy → Type} [FloatOps F]

/-- Sequence `b` of a [16, 256, 64] vector, as a [1, 256, 64] vector. -/
def seqOf {α : Type} (X : S16x256x64.Idx → α) (b : Fin 16) : S1x256x64.Idx → α := fun z => X (ix3 b (z 1) (z 2))

/-- The block a grid point leaves: per sequence, the head payload of that sequence's queries, keys and values. -/
def blockOf (Q K V : S16x256x64.Idx → Elt F .bf16) : Vec F S16x256x64 .f32 :=
  fun y => k0_pay5 (seqOf Q (y 0)) (seqOf K (y 0)) (seqOf V (y 0)) (ix3 (0 : Fin 1) (y 1) (y 2))

theorem zeros3 : (![0, 0, 0] : Fin 3 → Nat) = fun _ => 0 := funext fun a => by fin_cases a <;> rfl
theorem zeros2 : (![0, 0] : Fin 2 → Nat) = fun _ => 0 := funext fun a => by fin_cases a <;> rfl

/-- One store of a whole buffer, read back, is what was stored. -/
theorem read_whole_store {sig' : RefSig} {κ : Kind} {sp : Space} {S : Shape} {e : EltTy} (v : View sig' κ sp S e)
    (f : v.ty.Contents (Elt F)) {off : Fin S.rank → Nat} (hz : off = fun _ => 0) (inb : ∀ a, off a + S.size a ≤ S.size a)
    (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩),
    View.canon_unit_zero hz]

/-- Trip k's rectangle places (0, t, h) at (k, t, h). -/
theorem trip_idx (k : Fin k0_t1_loop.trips) (z : S1x256x64.Idx) :
    (Rect.unit (s := S16x256x64) (k0_off1 k) S1x256x64.size (k0_off1_inb k)).idx z
      = ix3 (⟨k.val, Nat.lt_of_lt_of_le k.isLt k0_t1_abs.2.1⟩ : Fin 16) (z 1) (z 2) := by
  have e := k0_off1_eq k
  have z0 : (z 0).val < 1 := (z 0).isLt
  funext a
  apply Fin.ext
  match a with
  | ⟨0, _⟩ =>
    show (k0_off1 k) 0 + 1 * (z 0).val = k.val
    rw [e]; show k.val + 1 * (z 0).val = k.val; omega
  | ⟨1, _⟩ =>
    show (k0_off1 k) 1 + 1 * (z 1).val = (z 1).val
    rw [e]; show 0 + 1 * (z 1).val = (z 1).val; omega
  | ⟨2, _⟩ =>
    show (k0_off1 k) 2 + 1 * (z 2).val = (z 2).val
    rw [e]; show 0 + 1 * (z 2).val = (z 2).val; omega

section Pieces

variable (𝒱 : Variants) (c : Dev nD) (bd : Option 𝒱.V) (i : grid0.Coords) (arg1 : Memref sig .tc .vmem S16x256x384 .f32) (harg1 : arg1.IsWhole) (arg2 : Memref sig .tc .vmem S64x384 .f32) (harg2 : arg2.IsWhole) (arg3 : Memref sig .tc .vmem S64x384 .f32) (harg3 : arg3.IsWhole) (arg4 : Memref sig .tc .vmem S64x384 .f32) (harg4 : arg4.IsWhole) (arg5 : Memref sig .tc .vmem S16x256x64 .f32) (harg5 : arg5.IsWhole) (arg6 : Memref sig .tc .vmem S16x256x64 .bf16) (harg6 : arg6.IsWhole) (arg7 : Memref sig .tc .vmem S16x256x64 .bf16) (harg7 : arg7.IsWhole) (arg8 : Memref sig .tc .vmem S16x256x64 .bf16) (harg8 : arg8.IsWhole)
  (X6 : BufTy.Contents (Elt F) arg6.view.ty) (X7 : BufTy.Contents (Elt F) arg7.view.ty) (X8 : BufTy.Contents (Elt F) arg8.view.ty)

/-- The one store of trip k. -/
theorem trip_pieces (k : Fin k0_t1_loop.trips) :
    tripL_k0_t1 (F := F) 𝒱 c bd i arg1 harg1 arg2 harg2 arg3 harg3 arg4 harg4 arg5 harg5 arg6 harg6 arg7 harg7 arg8 harg8 X6 X7 X8 k
      = [⟨Rect.unit (s := S16x256x64) (k0_off1 k) S1x256x64.size (k0_off1_inb k),
          k0_pay5 (View.readAt (Elt F) arg7.view (Rect.unit (s := S16x256x64) (k0_off1 k) S1x256x64.size (k0_off1_inb k)).toLoadRect X7)
            (View.readAt (Elt F) arg6.view (Rect.unit (s := S16x256x64) (k0_off1 k) S1x256x64.size (k0_off1_inb k)).toLoadRect X6)
            (View.readAt (Elt F) arg8.view (Rect.unit (s := S16x256x64) (k0_off1 k) S1x256x64.size (k0_off1_inb k)).toLoadRect X8)⟩] := by
  unfold tripL_k0_t1 trip_k0_t1
  rfl

/-- Every store of the first n trips is some trip's. -/
theorem mem_trips (p : View.Piece (Elt F) S16x256x64 .f32) :
    ∀ n : ℕ, p ∈ pb_k0_t1 (F := F) 𝒱 c bd i arg1 harg1 arg2 harg2 arg3 harg3 arg4 harg4 arg5 harg5 arg6 harg6 arg7 harg7 arg8 harg8 X6 X7 X8 n →
      ∃ k : Fin k0_t1_loop.trips, p ∈ tripL_k0_t1 (F := F) 𝒱 c bd i arg1 harg1 arg2 harg2 arg3 harg3 arg4 harg4 arg5 harg5 arg6 harg6 arg7 harg7 arg8 harg8 X6 X7 X8 k
  | 0, h => by rw [pb_k0_t1.eq_1] at h; exact absurd h List.not_mem_nil
  | n + 1, h => by
    rw [pb_k0_t1.eq_2] at h
    unfold pb_k0_t1Step at h
    split at h
    · next hn =>
      rcases List.mem_append.mp h with h | h
      · exact ⟨⟨n, hn⟩, h⟩
      · exact mem_trips p n h
    · exact mem_trips p n h

/-- A store of some trip, made when the scratch buffers read Q, K and V, agrees with the block function. -/
theorem piece_agrees (Q K V : S16x256x64.Idx → Elt F .bf16)
    (h6 : arg6.view.read (Elt F) X6 = K) (h7 : arg7.view.read (Elt F) X7 = Q) (h8 : arg8.view.read (Elt F) X8 = V)
    (p : View.Piece (Elt F) S16x256x64 .f32) (n : ℕ)
    (hp : p ∈ pb_k0_t1 (F := F) 𝒱 c bd i arg1 harg1 arg2 harg2 arg3 harg3 arg4 harg4 arg5 harg5 arg6 harg6 arg7 harg7 arg8 harg8 X6 X7 X8 n) :
    ∀ x : p.1.shape.Idx, p.2 x = blockOf Q K V (p.1.emb x) := by
  obtain ⟨k, hk⟩ := mem_trips 𝒱 c bd i arg1 harg1 arg2 harg2 arg3 harg3 arg4 harg4 arg5 harg5 arg6 harg6 arg7 harg7 arg8 harg8 X6 X7 X8 p n hp
  rw [trip_pieces, List.mem_singleton] at hk
  subst hk
  intro (x : S1x256x64.Idx)
  show k0_pay5 _ _ _ x = blockOf Q K V ((Rect.unit (s := S16x256x64) (k0_off1 k) S1x256x64.size (k0_off1_inb k)).idx x)
  rw [trip_idx k x]
  have hx : x = ix3 (0 : Fin 1) (x 1) (x 2) :=
    funext fun a => Fin.ext (by
      match a with
      | ⟨0, _⟩ => have : (x 0).val < 1 := (x 0).isLt; show (x 0).val = 0; omega
      | ⟨1, _⟩ => rfl
      | ⟨2, _⟩ => rfl)
  unfold blockOf
  simp only [View.readAt_eq_ld, h6, h7, h8]
  conv_lhs => rw [hx]
  congr 1 <;> (funext z; exact congrArg _ (trip_idx k z))

end Pieces

/-- THE BLOCK: what the body leaves in its output buffer is the block function of the three projections of its input blocks. -/
theorem out_block (c : Dev nD) (i : grid0.Coords) (arg1 : Memref sig .tc .vmem S16x256x384 .f32) (harg1 : arg1.IsWhole) (arg2 : Memref sig .tc .vmem S64x384 .f32) (harg2 : arg2.IsWhole) (arg3 : Memref sig .tc .vmem S64x384 .f32) (harg3 : arg3.IsWhole) (arg4 : Memref sig .tc .vmem S64x384 .f32) (harg4 : arg4.IsWhole) (arg5 : Memref sig .tc .vmem S16x256x64 .f32) (harg5 : arg5.IsWhole) (arg6 : Memref sig .tc .vmem S16x256x64 .bf16) (harg6 : arg6.IsWhole) (arg7 : Memref sig .tc .vmem S16x256x64 .bf16) (harg7 : arg7.IsWhole) (arg8 : Memref sig .tc .vmem S16x256x64 .bf16) (harg8 : arg8.IsWhole)
    (x0 : Vec F S16x256x384 .f32) (x1 x2 x3 : Vec F S64x384 .f32) :
    out0_A_4 c i arg1 harg1 arg2 harg2 arg3 harg3 arg4 harg4 arg5 harg5 arg6 harg6 arg7 harg7 arg8 harg8 x0 x1 x2 x3 = blockOf (k0_pay3 x0 x2) (k0_pay2 x0 x1) (k0_pay4 x0 x3) := by
  funext y
  unfold out0_A_4
  refine View.read_writes_apply_of_pieces _ _ (blockOf (k0_pay3 x0 x2) (k0_pay2 x0 x1) (k0_pay4 x0 x3)) _ ?_ y
    (cover0_A_4 c i arg1 harg1 arg2 harg2 arg3 harg3 arg4 harg4 arg5 harg5 arg6 harg6 arg7 harg7 arg8 harg8 x0 x1 x2 x3 y)
  intro p hp x
  unfold kernelRun0_A at hp
  dsimp only at hp
  refine piece_agrees Variants.none c none i arg1 harg1 arg2 harg2 arg3 harg3 arg4 harg4 arg5 harg5 arg6 harg6 arg7 harg7 arg8 harg8 _ _ _ _ _ _ ?_ ?_ ?_ p _ hp x
  all_goals sl_unfold_words
  all_goals rw [read_whole_store _ _ zeros3]
  all_goals simp only [View.readAt_eq_ld, harg1.read_unread, harg2.read_unread, harg3.read_unread, harg4.read_unread,
    View.ld_unit_zero (S := S16x256x384) zeros3, View.ld_unit_zero (S := S64x384) zeros2]

end Cert.AttnBlock

end
-- ==== Proof.AttnArray.lean ====
/-
  From the blocks to the array: after the kernel's run the result array holds the attention function of the arguments.

  The grid has 16 points; point p stages sequences 16p … 16p + 15 of the token array and the three weight matrices whole, and
  writes back sequences 16p … 16p + 15 of the result.  So entry (b, t, h) of point p's block is entry (16p + b, t, h) of the
  attention function: the projections of a staged sequence are the projections of that sequence of the argument, and one
  head of attention on them is the function's value.  Every result index lies in the block of point (its sequence)/16.
-/
import proofs.«110421_j1915555414232_2_alg».proof.Proof.Gen.KernelIdeal.Value
import proofs.«110421_j1915555414232_2_alg».proof.Proof.AttnBody
import proofs.«110421_j1915555414232_2_alg».proof.Proof.AttnBlock

set_option maxRecDepth 16384

noncomputable section

namespace Cert.AttnArray

open Idealize.ShloMosaic Idealize.ShloMosaic.TcCoe Idealize.ShloMosaic.ValueIdx Idealize.SL.Sem
open Idealize.ShloMosaic.Pipeline (Dat)
open Cert.KernelIdeal Cert.KernelIdeal.Gen Cert.AttnSpec Cert.AttnBody Cert.AttnBlock

/-! ## One block, over variables -/

/-- A block whose staged sequence `b` is sequence `B` of the token array, with the weight matrices staged whole: entry
    (b, r, h) of what the body leaves is the attention function at (B, r, h). -/
theorem block_attn (x0 : Vec Ideal S16x256x384 .f32) (x1 x2 x3 : Vec Ideal S64x384 .f32)
    (x : SX.Idx → EReal) (Wk Wq Wv : SW.Idx → EReal) (B : Fin 256) (b : Fin 16)
    (h0 : ∀ r k, x0 (ix3 b r k) = x (ix3 B r k)) (h1 : ∀ h k, x1 (ix2 h k) = Wk (ix2 h k))
    (h2 : ∀ h k, x2 (ix2 h k) = Wq (ix2 h k)) (h3 : ∀ h k, x3 (ix2 h k) = Wv (ix2 h k)) (r : Fin 256) (h : Fin 64) :
    blockOf (F := Ideal) (k0_pay3 x0 x2) (k0_pay2 x0 x1) (k0_pay4 x0 x3) (ix3 b r h) = attn x Wk Wq Wv (ix3 B r h) := by
  show k0_pay5 (F := Ideal) (seqOf (k0_pay3 x0 x2) b) (seqOf (k0_pay2 x0 x1) b) (seqOf (k0_pay4 x0 x3) b) (ix3 (0 : Fin 1) r h)
    = headOut (proj x Wq B) (proj x Wk B) (proj x Wv B) r h
  have hp : ∀ (w : Vec Ideal S64x384 .f32) (W : SW.Idx → EReal), (∀ h k, w (ix2 h k) = W (ix2 h k)) →
      (fun (t : Fin 256) (h : Fin 64) => seqOf (k0_pay2 (F := Ideal) x0 w) b (ix3 (0 : Fin 1) t h)) = proj x W B := by
    intro w W hw
    funext t h
    show k0_pay2 (F := Ideal) x0 w (ix3 b t h) = _
    rw [proj_payload]
    unfold proj
    exact Finset.sum_congr rfl fun k _ => by rw [h0, hw]
  rw [head_payload, pay3_eq_pay2, pay4_eq_pay2, hp x2 Wq h2, hp x1 Wk h1, hp x3 Wv h3]

/-! ## The windows' blocks -/

/-- Where each window's block sits, decided over the 16 grid points. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0)

variable (m : (ℓ : Loc nD τ sig) → Buf (Elt Ideal) ℓ) (ρ : Dev nD → PrngReg)

/-- Sequence b of point t's token block is sequence 16t + b of the token array. -/
theorem tokens_apply (c : Dev nD) (t : Fin cfg0.N) (b : Fin 16) (B : Fin 256) (hB : B.val = t.val * 16 + b.val)
    (r : Fin 256) (k : Fin 384) :
    (iblk m c 0 t : Vec Ideal S16x256x384 .f32) (ix3 b r k)
      = (m ((c : Thread nD τ).loc main_arg0) : S256x256x384.Idx → EReal) (ix3 B r k) := by
  obtain ⟨e0, e1, e2, -⟩ := index_facts t
  unfold iblk
  rw [View.read_apply]
  show V m c main_arg0 _ = m (c.tc.loc main_arg0) _
  unfold V
  congr 1
  funext a
  apply Fin.ext
  match a with
  | ⟨0, _⟩ => show win0_0.index t (0 : Fin 3) * 16 + 1 * b.val = B.val; rw [e0, hB]; omega
  | ⟨1, _⟩ => show win0_0.index t (1 : Fin 3) * 256 + 1 * r.val = r.val; rw [e1]; omega
  | ⟨2, _⟩ => show win0_0.index t (2 : Fin 3) * 384 + 1 * k.val = k.val; rw [e2]; omega

/-- Each weight window's block is its whole matrix, at every point. -/
theorem weights1_apply (c : Dev nD) (t : Fin cfg0.N) (h : Fin 64) (k : Fin 384) :
    (iblk m c 1 t : Vec Ideal S64x384 .f32) (ix2 h k) = (m ((c : Thread nD τ).loc main_arg1) : S64x384.Idx → EReal) (ix2 h k) := by
  obtain ⟨-, -, -, e0, e1, -⟩ := index_facts t
  unfold iblk
  rw [View.read_apply]
  show V m c main_arg1 _ = m (c.tc.loc main_arg1) _
  unfold V
  congr 1
  funext a
  apply Fin.ext
  match a with
  | ⟨0, _⟩ => show win0_1.index t (0 : Fin 2) * 64 + 1 * h.val = h.val; rw [e0]; omega
  | ⟨1, _⟩ => show win0_1.index t (1 : Fin 2) * 384 + 1 * k.val = k.val; rw [e1]; omega

theorem weights2_apply (c : Dev nD) (t : Fin cfg0.N) (h : Fin 64) (k : Fin 384) :
    (iblk m c 2 t : Vec Ideal S64x384 .f32) (ix2 h k) = (m ((c : Thread nD τ).loc main_arg2) : S64x384.Idx → EReal) (ix2 h k) := by
  obtain ⟨-, -, -, -, -, e0, e1, -⟩ := index_facts t
  unfold iblk
  rw [View.read_apply]
  show V m c main_arg2 _ = m (c.tc.loc main_arg2) _
  unfold V
  congr 1
  funext a
  apply Fin.ext
  match a with
  | ⟨0, _⟩ => show win0_2.index t (0 : Fin 2) * 64 + 1 * h.val = h.val; rw [e0]; omega
  | ⟨1, _⟩ => show win0_2.index t (1 : Fin 2) * 384 + 1 * k.val = k.val; rw [e1]; omega

theorem weights3_apply (c : Dev nD) (t : Fin cfg0.N) (h : Fin 64) (k : Fin 384) :
    (iblk m c 3 t : Vec Ideal S64x384 .f32) (ix2 h k) = (m ((c : Thread nD τ).loc main_arg3) : S64x384.Idx → EReal) (ix2 h k) := by
  obtain ⟨-, -, -, -, -, -, -, e0, e1, -⟩ := index_facts t
  unfold iblk
  rw [View.read_apply]
  show V m c main_arg3 _ = m (c.tc.loc main_arg3) _
  unfold V
  congr 1
  funext a
  apply Fin.ext
  match a with
  | ⟨0, _⟩ => show win0_3.index t (0 : Fin 2) * 64 + 1 * h.val = h.val; rw [e0]; omega
  | ⟨1, _⟩ => show win0_3.index t (1 : Fin 2) * 384 + 1 * k.val = k.val; rw [e1]; omega

/-- The attention function of the four argument arrays as the run finds them. -/
abbrev result (c : Dev nD) : S256x256x64.Idx → EReal :=
  attn (m ((c : Thread nD τ).loc main_arg0)) (m ((c : Thread nD τ).loc main_arg1)) (m ((c : Thread nD τ).loc main_arg2))
    (m ((c : Thread nD τ).loc main_arg3))

/-- WHAT POINT t WRITES BACK is block t of the attention function. -/
theorem flushed_eq (c : Dev nD) (t : Fin cfg0.N) :
    (dats m 0 c).flushed 4 t = ((cfg0.win 4).blk t).view.read (Elt Ideal) (result m c) := by
  obtain ⟨-, -, -, -, -, -, -, -, -, e0, e1, e2⟩ := index_facts t
  have ht : t.val < 16 := lt_of_lt_of_eq t.isLt N_0
  rw [Cert.KernelIdeal.Value.flushed4]
  unfold outsAt0
  rw [out_block]
  funext j
  have hj : (j 0).val < 16 := (j 0).isLt
  show blockOf (F := Ideal) (k0_pay3 (iblk m c 0 t) (iblk m c 2 t)) (k0_pay2 (iblk m c 0 t) (iblk m c 1 t))
      (k0_pay4 (iblk m c 0 t) (iblk m c 3 t)) (ix3 (j 0 : Fin 16) (j 1 : Fin 256) (j 2 : Fin 64))
    = result m c (((cfg0.win 4).blk t).view.emb j)
  rw [show ((cfg0.win 4).blk t).view.emb j
      = ix3 (⟨t.val * 16 + (j 0).val, by omega⟩ : Fin 256) (j 1 : Fin 256) (j 2 : Fin 64) from
    funext fun a => Fin.ext (by
      match a with
      | ⟨0, _⟩ => show win0_4.index t (0 : Fin 3) * 16 + 1 * (j 0).val = t.val * 16 + (j 0).val; rw [e0]; omega
      | ⟨1, _⟩ => show win0_4.index t (1 : Fin 3) * 256 + 1 * (j 1).val = (j 1).val; rw [e1]; omega
      | ⟨2, _⟩ => show win0_4.index t (2 : Fin 3) * 64 + 1 * (j 2).val = (j 2).val; rw [e2]; omega)]
  exact block_attn _ _ _ _ _ _ _ _ _ _ (tokens_apply m c t _ _ rfl) (weights1_apply m c t) (weights2_apply m c t)
    (weights3_apply m c t) _ _

/-- Every index of the result array is in the block of the point its sequence falls in. -/
theorem cover (i : S256x256x64.Idx) :
    ∃ t : Fin cfg0.N, (cfg0.win 4).flush t = true ∧ i ∈ ((cfg0.win 4).blk t).view.set := by
  have hi0 : (i 0).val < 256 := (i 0).isLt
  have hi1 : (i 1).val < 256 := (i 1).isLt
  have hi2 : (i 2).val < 64 := (i 2).isLt
  have hN : cfg0.N = 16 := N_0
  obtain ⟨t, ht⟩ : ∃ t : Fin cfg0.N, t.val = (i 0).val / 16 := ⟨⟨(i 0).val / 16, by rw [hN]; omega⟩, rfl⟩
  obtain ⟨-, -, -, -, -, -, -, -, -, e0, e1, e2⟩ := index_facts t
  refine ⟨t, flush0_4 t, ?_⟩
  show i ∈ ((View.whole main_v0).slice (win0_4.rect t)).set
  rw [View.set_slice_whole, Rect.mem_set_unit]
  intro a
  match a with
  | ⟨0, _⟩ =>
    show win0_4.index t (0 : Fin 3) * 16 ≤ (i 0).val ∧ (i 0).val < win0_4.index t (0 : Fin 3) * 16 + 16
    rw [e0, ht]; omega
  | ⟨1, _⟩ =>
    show win0_4.index t (1 : Fin 3) * 256 ≤ (i 1).val ∧ (i 1).val < win0_4.index t (1 : Fin 3) * 256 + 256
    rw [e1]; omega
  | ⟨2, _⟩ =>
    show win0_4.index t (2 : Fin 3) * 64 ≤ (i 2).val ∧ (i 2).val < win0_4.index t (2 : Fin 3) * 64 + 64
    rw [e2]; omega

/-- THE ARRAY after the run is the attention function of the arguments. -/
theorem final (c : Dev nD) : (dats m 0 c).arrAt 4 cfg0.N = result m c :=
  (dats m 0 c).arrAt_eq_of_cover 4 (result m c) (fun t _ => flushed_eq m c t) cover

/-- The kernel's run, read: the result array at the attention function of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.AttnArray

end
-- ==== Proof.lean ====
/-
  A fused causal attention head against its plain reference, on the extended reals.

  Both programs take a batch of 256 sequences of 256 tokens of width 384 and three 64 × 384 weight matrices, project every token
  to a key, a query and a value of width 64, score each query against the keys of its own sequence (inner product times 1/8,
  replaced by −10³⁰ where the key comes after the query), turn each row of scores into weights (subtract the row maximum,
  exponentiate, divide by the row total) and combine the value rows with them.  The kernel does this 16 sequences per grid
  point, keeping the projections in scratch buffers and looping over the sequences; the reference does it in whole-array
  operations.  Read exactly, every operation of one is an operation of the other — the changes of float format are the
  identity, each matrix product is a finite sum over the contracted axis, the maxima are folds of `max` from −∞, and the
  reference's extra maximum with −∞ changes nothing — so the two results are one function of the arguments
  (`Cert.AttnSpec.attn`), index by index, with the same three constants as the same words on both sides.  No law used here
  needs the inputs to be finite, so the precondition is never opened.

  The pieces: the specification (AttnSpec); the reference's result is that function (AttnRef); the kernel body's
  arithmetic at an index (AttnBody, over LibRowOps, LibColOps, LibRowSoftmax); what one grid point leaves in its block
  (AttnBlock); the result array after the run (AttnArray).  The idealization rewrote no operation, so its claim is trivial.
-/
import proofs.«110421_j1915555414232_2_alg».proof.Defs
import proofs.«110421_j1915555414232_2_alg».proof.Proof.Gen.Kernel
import proofs.«110421_j1915555414232_2_alg».proof.Proof.Gen.Kernel.Frame
import proofs.«110421_j1915555414232_2_alg».proof.Proof.Gen.KernelIdeal
import proofs.«110421_j1915555414232_2_alg».proof.Proof.Gen.KernelIdeal.Frame
import proofs.«110421_j1915555414232_2_alg».proof.Proof.Gen.KernelIdeal.Value
import proofs.«110421_j1915555414232_2_alg».proof.Proof.Gen.ReferenceIdeal
import proofs.«110421_j1915555414232_2_alg».proof.Proof.Gen.ReferenceIdeal.Run
import proofs.«110421_j1915555414232_2_alg».proof.Proof.Gen.ReferenceIdeal.Read
import proofs.«110421_j1915555414232_2_alg».proof.Proof.Gen.Pre_finite_inputs
import proofs.«110421_j1915555414232_2_alg».proof.Proof.AttnRef
import proofs.«110421_j1915555414232_2_alg».proof.Proof.AttnArray
import Idealize.ShloMosaic.Adequacy
import Idealize.ShloMosaic.Init

noncomputable section

namespace Cert.Proof

open Idealize.ShloMosaic Idealize.ShloMosaic.TcCoe Idealize.SL.Sem

/-- Both idealized programs, from memories that agree on the arguments, end with the attention function of the arguments
    in their result arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.AttnArray.result m c, Cert.AttnArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.AttnRef.result_eq, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
